-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel

variable [Facts]

def fn {F : FTy → Type} [FloatOps F] (main_arg0 : FVec F S16384x4096 .f32) (main_arg1 : FVec F S16384x4096 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S16384x4096 .f32 := Host.absf main_arg1
  let main_cst_0 : FVec F S_ .f32 := constant S_ .f32 0x7F800000#32
  let main_v5 : FVec F S16384x4096 .f32 := broadcastInDim S16384x4096 ![] bcast_S_S16384x4096 main_cst_0
  let main_v6 : IVec S16384x4096 1 := cmpf .olt main_v4 main_v5
  let main_c_1 : IVec S_ 1 := constantI S_ 1 1#1
  let main_v7 : IVec S_ 1 := (fun x v => Host.reduce IntOp.andi x v reducesTo_S16384x4096_S_d0_1 h_S_) main_v6 main_c_1
  let main_v8 : IVec S_ 1 := andi main_v3 main_v7
  main_v8
-- ==== Kernel.lean ====
abbrev S16384x4096 : Shape := ⟨2, ![16384, 4096]⟩
abbrev S1x4096 : Shape := ⟨2, ![1, 4096]⟩
abbrev S512x2048 : Shape := ⟨2, ![512, 2048]⟩
abbrev S1x2048 : Shape := ⟨2, ![1, 2048]⟩
abbrev S2048 : Shape := ⟨1, ![2048]⟩
abbrev S4096 : Shape := ⟨1, ![4096]⟩
abbrev S_ : Shape := ⟨0, ![]⟩

abbrev nBuf : Space → Nat
  | .hbm => 10
  | .vmem => 9
  | .smem => 0
  | _ => 0

abbrev bufTy : (tb : Table) → Fin (tcTables nBuf tb) → BufTy
  | .hbm, ⟨0, _⟩ => ⟨S16384x4096, .f32⟩
  | .hbm, ⟨1, _⟩ => ⟨S16384x4096, .f32⟩
  | .hbm, ⟨2, _⟩ => ⟨S1x4096, .f32⟩
  | .hbm, ⟨3, _⟩ => ⟨S4096, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S1x2048, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v29 : BitVec 1 := Scalar.cmpi .eq arg1 c31_i32
  let v30 : BitVec 32 := Scalar.extui v29
  let c0_i32_18 : BitVec 32 := 0#32
  let v31 : BitVec 1 := Scalar.cmpi .ne v30 c0_i32_18
  v31

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S512x2048_S512x2048_0_0 : ∀ a, (![0, 0] : Fin 2 → Nat) a + S512x2048.size a ≤ S512x2048.size a
  h_S512x2048 : 0 < S512x2048.numel
  reduces_S512x2048_S2048 : S512x2048.Reduces [0] S2048
  shapeCasts_S2048_S1x2048 : S2048.ShapeCasts S1x2048
  shapeCasts_S1x4096_S4096 : S1x4096.ShapeCasts S4096
  reducesTo_S4096_S_d0 : S4096.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S16384x4096.size a
  hwx0_0 : ∀ i : grid0.Coords, EltTy.bits .f32 = 32 ∨ (Rect.block (s := S16384x4096) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S16384x4096.size a
  hwx0_1 : ∀ i : grid0.Coords, EltTy.bits .f32 = 32 ∨ (Rect.block (s := S16384x4096) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x4096.size a
  hwx0_2 : ∀ i : grid0.Coords, EltTy.bits .f32 = 32 ∨ (Rect.block (s := S1x4096) S1x2048.size (cc0_transform_2 i) (hinb0_2 i)).WholeWords (EltTy.packing .f32)

variable [Facts₀]

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16384x4096 : Shape := ⟨2, ![16384, 4096]⟩
abbrev S_ : Shape := ⟨0, ![]⟩
abbrev S4096 : Shape := ⟨1, ![4096]⟩

abbrev nBuf : Space → Nat
  | .hbm => 27
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x4096, .f32⟩
  | .hbm, ⟨2, _⟩ => ⟨S16384x4096, .f32⟩
  | .hbm, ⟨3, _⟩ => ⟨S_, .f32⟩
  | .hbm, ⟨4, _⟩ => ⟨S4096, .f32⟩
  | .hbm, ⟨5, _⟩ => ⟨S16384x4096, .f32⟩
  | .hbm, ⟨6, _⟩ => ⟨S_, .f32⟩
  | .hbm, ⟨7, _⟩ => ⟨S4096, .f32⟩
  | .hbm, ⟨8, _⟩ => ⟨S4096, .f32⟩
  | .hbm, ⟨9, _⟩ => ⟨S16384x4096, .f32⟩
  | .hbm, ⟨10, _⟩ => ⟨S_, .f32⟩
  | .hbm, ⟨11, _⟩ => ⟨S4096, .f32⟩
  | .hbm, ⟨12, _⟩ => ⟨S4096, .f32⟩
  | .hbm, ⟨13, _⟩ => ⟨S_, .f32⟩
  | .hbm, ⟨14, _⟩ => ⟨S4096, .f32⟩
  | .hbm, ⟨15, _⟩ => ⟨S4096, .f32⟩
  | .hbm, ⟨16, _⟩ => ⟨S_, .f32⟩
  | .hbm, ⟨17, _⟩ => ⟨S4096, .f32⟩
  | .hbm, ⟨18, _⟩ => ⟨S4096, .f32⟩
  | .hbm, ⟨19, _⟩ => ⟨S4096, .f32⟩
  | .hbm, ⟨20, _⟩ => ⟨S4096, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_4 : Ref sig .tc := ⟨.hbm, 21, rfl⟩
abbrev main_v14 : Ref sig .tc := ⟨.hbm, 22, rfl⟩
abbrev main_cst_5 : Ref sig .tc := ⟨.hbm, 23, rfl⟩
abbrev main_v15 : Ref sig .tc := ⟨.hbm, 24, rfl⟩
abbrev main_cst_6 : Ref sig .tc := ⟨.hbm, 25, rfl⟩
abbrev main_v16 : Ref sig .tc := ⟨.hbm, 26, rfl⟩

abbrev nD : Nat := 1
abbrev τ : Topo := Topo.v7x

variable {F : FTy → Type} [FloatOps F]

class Facts₀ : Prop where
  reducesTo_S16384x4096_S4096_d0 : S16384x4096.ReducesTo [0] S4096
  h_S_ : 0 < S_.numel
  bcast_S_S4096 : S_.BroadcastsInDim S4096 (![] : Fin 0 → Fin S4096.rank)
  reducesTo_S4096_S_d0 : S4096.ReducesTo [0] S_

variable [Facts₀]

class Facts : Prop extends Facts₀ where

variable [Facts]
-- ==== Proof.Pieces.lean ====
/-
  What one grid point leaves in the three running sums and in the output block, as values.

  The kernel walks a grid of 2 column blocks by 32 row blocks, the row blocks innermost. At every point it adds, into
  three [1, 2048] running sums kept between points, the column sums over the point's 512 rows of o·t, o·o and t·t. At
  the first row block of a column block the sums are first reset to zero; at the last one the quotient
  dot / (max(sqrt sqo, eps) · max(sqrt sqt, eps)) of the finished sums is stored as the output block. Here each of the
  three kinds of point is read back: what it leaves in each running sum is the sum's one pure update term of the
  point's two input blocks and of what the sum held before (the zero block, at a first row block), and what the last
  row block stores is the quotient term of the three updated sums. For any float instance.
-/
import proofs.«157805_j7035156431183_2_alg».proof.Proof.Gen.KernelIdeal.Frame
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Acc

open Cert.KernelIdeal Cert.KernelIdeal.Gen

variable {F : FTy → Type} [FloatOps F]

/-- The offsets of a whole-buffer access, both zero. -/
theorem hz : (![0, 0] : Fin 2 → Nat) = fun _ => 0 := funext fun a => by fin_cases a <;> rfl

/-! ## The first row block of a column block: the three running sums are reset to zero, then the block is added -/

theorem first_dot (c : Dev nD) (i : grid0.Coords) (a2 : Memref sig .tc .vmem S512x2048 .f32) (h2 : a2.IsWhole)
    (a3 : Memref sig .tc .vmem S512x2048 .f32) (h3 : a3.IsWhole) (a4 : Memref sig .tc .vmem S1x2048 .f32) (h4 : a4.IsWhole)
    (a5 : Memref sig .tc .vmem S1x2048 .f32) (h5 : a5.IsWhole) (a6 : Memref sig .tc .vmem S1x2048 .f32) (h6 : a6.IsWhole)
    (a7 : Memref sig .tc .vmem S1x2048 .f32) (h7 : a7.IsWhole) (hc0 : cond0_0 i) (hc1 : ¬cond0_1 i)
    (x0 x1 : Vec F S512x2048 .f32) :
    sout0_A_0 c i a2 h2 a3 h3 a4 h4 a5 h5 a6 h6 a7 h7 hc0 hc1 x0 x1 = k0_pay5 x0 x1 (k0_pay2 (F := F)) := by
  unfold sout0_A_0
  rw [View.read_writes_eq_canon _ _ _ (scover0_A_0 c i a2 h2 a3 h3 a4 h4 a5 h5 a6 h6 a7 h7 hc0 hc1 x0 x1)]
  unfold kernelRun0_A
  dsimp only
  sl_unfold_words
  rw [View.canon_cons_unit_zero (S := S1x2048) hz, View.readCov_unit_zero (S := S1x2048) _ hz]
  simp only [View.readAt_eq_ld, h2.read_unread, h3.read_unread, View.ld_unit_zero (S := S512x2048) hz]

theorem first_sqo (c : Dev nD) (i : grid0.Coords) (a2 : Memref sig .tc .vmem S512x2048 .f32) (h2 : a2.IsWhole)
    (a3 : Memref sig .tc .vmem S512x2048 .f32) (h3 : a3.IsWhole) (a4 : Memref sig .tc .vmem S1x2048 .f32) (h4 : a4.IsWhole)
    (a5 : Memref sig .tc .vmem S1x2048 .f32) (h5 : a5.IsWhole) (a6 : Memref sig .tc .vmem S1x2048 .f32) (h6 : a6.IsWhole)
    (a7 : Memref sig .tc .vmem S1x2048 .f32) (h7 : a7.IsWhole) (hc0 : cond0_0 i) (hc1 : ¬cond0_1 i)
    (x0 x1 : Vec F S512x2048 .f32) :
    sout0_A_1 c i a2 h2 a3 h3 a4 h4 a5 h5 a6 h6 a7 h7 hc0 hc1 x0 x1 = k0_pay6 x0 (k0_pay3 (F := F)) := by
  unfold sout0_A_1
  rw [View.read_writes_eq_canon _ _ _ (scover0_A_1 c i a2 h2 a3 h3 a4 h4 a5 h5 a6 h6 a7 h7 hc0 hc1 x0 x1)]
  unfold kernelRun0_A
  dsimp only
  sl_unfold_words
  rw [View.canon_cons_unit_zero (S := S1x2048) hz, View.readCov_unit_zero (S := S1x2048) _ hz]
  simp only [View.readAt_eq_ld, h2.read_unread, h3.read_unread, View.ld_unit_zero (S := S512x2048) hz]

theorem first_sqt (c : Dev nD) (i : grid0.Coords) (a2 : Memref sig .tc .vmem S512x2048 .f32) (h2 : a2.IsWhole)
    (a3 : Memref sig .tc .vmem S512x2048 .f32) (h3 : a3.IsWhole) (a4 : Memref sig .tc .vmem S1x2048 .f32) (h4 : a4.IsWhole)
    (a5 : Memref sig .tc .vmem S1x2048 .f32) (h5 : a5.IsWhole) (a6 : Memref sig .tc .vmem S1x2048 .f32) (h6 : a6.IsWhole)
    (a7 : Memref sig .tc .vmem S1x2048 .f32) (h7 : a7.IsWhole) (hc0 : cond0_0 i) (hc1 : ¬cond0_1 i)
    (x0 x1 : Vec F S512x2048 .f32) :
    sout0_A_2 c i a2 h2 a3 h3 a4 h4 a5 h5 a6 h6 a7 h7 hc0 hc1 x0 x1 = k0_pay7 x1 (k0_pay4 (F := F)) := by
  unfold sout0_A_2
  rw [View.read_writes_eq_canon _ _ _ (scover0_A_2 c i a2 h2 a3 h3 a4 h4 a5 h5 a6 h6 a7 h7 hc0 hc1 x0 x1)]
  unfold kernelRun0_A
  dsimp only
  sl_unfold_words
  rw [View.canon_cons_unit_zero (S := S1x2048) hz, View.readCov_unit_zero (S := S1x2048) _ hz]
  simp only [View.readAt_eq_ld, h2.read_unread, h3.read_unread, View.ld_unit_zero (S := S512x2048) hz]

/-! ## A row block in the middle: the block is added to what the running sums held -/

theorem mid_dot (c : Dev nD) (i : grid0.Coords) (a2 : Memref sig .tc .vmem S512x2048 .f32) (h2 : a2.IsWhole)
    (a3 : Memref sig .tc .vmem S512x2048 .f32) (h3 : a3.IsWhole) (a4 : Memref sig .tc .vmem S1x2048 .f32) (h4 : a4.IsWhole)
    (a5 : Memref sig .tc .vmem S1x2048 .f32) (h5 : a5.IsWhole) (a6 : Memref sig .tc .vmem S1x2048 .f32) (h6 : a6.IsWhole)
    (a7 : Memref sig .tc .vmem S1x2048 .f32) (h7 : a7.IsWhole) (hc0 : ¬cond0_0 i) (hc1 : ¬cond0_1 i)
    (x0 x1 : Vec F S512x2048 .f32) (xs0 xs1 xs2 : Vec F S1x2048 .f32) :
    sout0_B_0 c i a2 h2 a3 h3 a4 h4 a5 h5 a6 h6 a7 h7 hc0 hc1 x0 x1 xs0 xs1 xs2 = k0_pay5 x0 x1 xs0 := by
  unfold sout0_B_0
  rw [View.read_writes_eq_canon _ _ _ (scover0_B_0 c i a2 h2 a3 h3 a4 h4 a5 h5 a6 h6 a7 h7 hc0 hc1 x0 x1 xs0 xs1 xs2)]
  unfold kernelRun0_B
  dsimp only
  sl_unfold_words
  rw [View.canon_unit_zero hz]
  simp only [View.readAt_eq_ld, h2.read_unread, h3.read_unread, h5.read_unread, h6.read_unread, h7.read_unread, View.ld_unit_zero (S := S512x2048) hz, View.ld_unit_zero (S := S1x2048) hz]

theorem mid_sqo (c : Dev nD) (i : grid0.Coords) (a2 : Memref sig .tc .vmem S512x2048 .f32) (h2 : a2.IsWhole)
    (a3 : Memref sig .tc .vmem S512x2048 .f32) (h3 : a3.IsWhole) (a4 : Memref sig .tc .vmem S1x2048 .f32) (h4 : a4.IsWhole)
    (a5 : Memref sig .tc .vmem S1x2048 .f32) (h5 : a5.IsWhole) (a6 : Memref sig .tc .vmem S1x2048 .f32) (h6 : a6.IsWhole)
    (a7 : Memref sig .tc .vmem S1x2048 .f32) (h7 : a7.IsWhole) (hc0 : ¬cond0_0 i) (hc1 : ¬cond0_1 i)
    (x0 x1 : Vec F S512x2048 .f32) (xs0 xs1 xs2 : Vec F S1x2048 .f32) :
    sout0_B_1 c i a2 h2 a3 h3 a4 h4 a5 h5 a6 h6 a7 h7 hc0 hc1 x0 x1 xs0 xs1 xs2 = k0_pay6 x0 xs1 := by
  unfold sout0_B_1
  rw [View.read_writes_eq_canon _ _ _ (scover0_B_1 c i a2 h2 a3 h3 a4 h4 a5 h5 a6 h6 a7 h7 hc0 hc1 x0 x1 xs0 xs1 xs2)]
  unfold kernelRun0_B
  dsimp only
  sl_unfold_words
  rw [View.canon_unit_zero hz]
  simp only [View.readAt_eq_ld, h2.read_unread, h3.read_unread, h5.read_unread, h6.read_unread, h7.read_unread, View.ld_unit_zero (S := S512x2048) hz, View.ld_unit_zero (S := S1x2048) hz]

theorem mid_sqt (c : Dev nD) (i : grid0.Coords) (a2 : Memref sig .tc .vmem S512x2048 .f32) (h2 : a2.IsWhole)
    (a3 : Memref sig .tc .vmem S512x2048 .f32) (h3 : a3.IsWhole) (a4 : Memref sig .tc .vmem S1x2048 .f32) (h4 : a4.IsWhole)
    (a5 : Memref sig .tc .vmem S1x2048 .f32) (h5 : a5.IsWhole) (a6 : Memref sig .tc .vmem S1x2048 .f32) (h6 : a6.IsWhole)
    (a7 : Memref sig .tc .vmem S1x2048 .f32) (h7 : a7.IsWhole) (hc0 : ¬cond0_0 i) (hc1 : ¬cond0_1 i)
    (x0 x1 : Vec F S512x2048 .f32) (xs0 xs1 xs2 : Vec F S1x2048 .f32) :
    sout0_B_2 c i a2 h2 a3 h3 a4 h4 a5 h5 a6 h6 a7 h7 hc0 hc1 x0 x1 xs0 xs1 xs2 = k0_pay7 x1 xs2 := by
  unfold sout0_B_2
  rw [View.read_writes_eq_canon _ _ _ (scover0_B_2 c i a2 h2 a3 h3 a4 h4 a5 h5 a6 h6 a7 h7 hc0 hc1 x0 x1 xs0 xs1 xs2)]
  unfold kernelRun0_B
  dsimp only
  sl_unfold_words
  rw [View.canon_unit_zero hz]
  simp only [View.readAt_eq_ld, h2.read_unread, h3.read_unread, h5.read_unread, h6.read_unread, h7.read_unread, View.ld_unit_zero (S := S512x2048) hz, View.ld_unit_zero (S := S1x2048) hz]

/-! ## The last row block: the block is added, and the quotient of the three finished sums is stored -/

theorem last_dot (c : Dev nD) (i : grid0.Coords) (a2 : Memref sig .tc .vmem S512x2048 .f32) (h2 : a2.IsWhole)
    (a3 : Memref sig .tc .vmem S512x2048 .f32) (h3 : a3.IsWhole) (a4 : Memref sig .tc .vmem S1x2048 .f32) (h4 : a4.IsWhole)
    (a5 : Memref sig .tc .vmem S1x2048 .f32) (h5 : a5.IsWhole) (a6 : Memref sig .tc .vmem S1x2048 .f32) (h6 : a6.IsWhole)
    (a7 : Memref sig .tc .vmem S1x2048 .f32) (h7 : a7.IsWhole) (hc0 : ¬cond0_0 i) (hc1 : cond0_1 i)
    (x0 x1 : Vec F S512x2048 .f32) (xs0 xs1 xs2 : Vec F S1x2048 .f32) :
    sout0_C_0 c i a2 h2 a3 h3 a4 h4 a5 h5 a6 h6 a7 h7 hc0 hc1 x0 x1 xs0 xs1 xs2 = k0_pay5 x0 x1 xs0 := by
  unfold sout0_C_0
  rw [View.read_writes_eq_canon _ _ _ (scover0_C_0 c i a2 h2 a3 h3 a4 h4 a5 h5 a6 h6 a7 h7 hc0 hc1 x0 x1 xs0 xs1 xs2)]
  unfold kernelRun0_C
  dsimp only
  sl_unfold_words
  rw [View.canon_unit_zero hz]
  simp only [View.readAt_eq_ld, h2.read_unread, h3.read_unread, h5.read_unread, h6.read_unread, h7.read_unread, View.ld_unit_zero (S := S512x2048) hz, View.ld_unit_zero (S := S1x2048) hz]

theorem last_sqo (c : Dev nD) (i : grid0.Coords) (a2 : Memref sig .tc .vmem S512x2048 .f32) (h2 : a2.IsWhole)
    (a3 : Memref sig .tc .vmem S512x2048 .f32) (h3 : a3.IsWhole) (a4 : Memref sig .tc .vmem S1x2048 .f32) (h4 : a4.IsWhole)
    (a5 : Memref sig .tc .vmem S1x2048 .f32) (h5 : a5.IsWhole) (a6 : Memref sig .tc .vmem S1x2048 .f32) (h6 : a6.IsWhole)
    (a7 : Memref sig .tc .vmem S1x2048 .f32) (h7 : a7.IsWhole) (hc0 : ¬cond0_0 i) (hc1 : cond0_1 i)
    (x0 x1 : Vec F S512x2048 .f32) (xs0 xs1 xs2 : Vec F S1x2048 .f32) :
    sout0_C_1 c i a2 h2 a3 h3 a4 h4 a5 h5 a6 h6 a7 h7 hc0 hc1 x0 x1 xs0 xs1 xs2 = k0_pay6 x0 xs1 := by
  unfold sout0_C_1
  rw [View.read_writes_eq_canon _ _ _ (scover0_C_1 c i a2 h2 a3 h3 a4 h4 a5 h5 a6 h6 a7 h7 hc0 hc1 x0 x1 xs0 xs1 xs2)]
  unfold kernelRun0_C
  dsimp only
  sl_unfold_words
  rw [View.canon_unit_zero hz]
  simp only [View.readAt_eq_ld, h2.read_unread, h3.read_unread, h5.read_unread, h6.read_unread, h7.read_unread, View.ld_unit_zero (S := S512x2048) hz, View.ld_unit_zero (S := S1x2048) hz]

theorem last_sqt (c : Dev nD) (i : grid0.Coords) (a2 : Memref sig .tc .vmem S512x2048 .f32) (h2 : a2.IsWhole)
    (a3 : Memref sig .tc .vmem S512x2048 .f32) (h3 : a3.IsWhole) (a4 : Memref sig .tc .vmem S1x2048 .f32) (h4 : a4.IsWhole)
    (a5 : Memref sig .tc .vmem S1x2048 .f32) (h5 : a5.IsWhole) (a6 : Memref sig .tc .vmem S1x2048 .f32) (h6 : a6.IsWhole)
    (a7 : Memref sig .tc .vmem S1x2048 .f32) (h7 : a7.IsWhole) (hc0 : ¬cond0_0 i) (hc1 : cond0_1 i)
    (x0 x1 : Vec F S512x2048 .f32) (xs0 xs1 xs2 : Vec F S1x2048 .f32) :
    sout0_C_2 c i a2 h2 a3 h3 a4 h4 a5 h5 a6 h6 a7 h7 hc0 hc1 x0 x1 xs0 xs1 xs2 = k0_pay7 x1 xs2 := by
  unfold sout0_C_2
  rw [View.read_writes_eq_canon _ _ _ (scover0_C_2 c i a2 h2 a3 h3 a4 h4 a5 h5 a6 h6 a7 h7 hc0 hc1 x0 x1 xs0 xs1 xs2)]
  unfold kernelRun0_C
  dsimp only
  sl_unfold_words
  rw [View.canon_unit_zero hz]
  simp only [View.readAt_eq_ld, h2.read_unread, h3.read_unread, h5.read_unread, h6.read_unread, h7.read_unread, View.ld_unit_zero (S := S512x2048) hz, View.ld_unit_zero (S := S1x2048) hz]

theorem last_quot (c : Dev nD) (i : grid0.Coords) (a2 : Memref sig .tc .vmem S512x2048 .f32) (h2 : a2.IsWhole)
    (a3 : Memref sig .tc .vmem S512x2048 .f32) (h3 : a3.IsWhole) (a4 : Memref sig .tc .vmem S1x2048 .f32) (h4 : a4.IsWhole)
    (a5 : Memref sig .tc .vmem S1x2048 .f32) (h5 : a5.IsWhole) (a6 : Memref sig .tc .vmem S1x2048 .f32) (h6 : a6.IsWhole)
    (a7 : Memref sig .tc .vmem S1x2048 .f32) (h7 : a7.IsWhole) (hc0 : ¬cond0_0 i) (hc1 : cond0_1 i)
    (x0 x1 : Vec F S512x2048 .f32) (xs0 xs1 xs2 : Vec F S1x2048 .f32) :
    out0_C_2 c i a2 h2 a3 h3 a4 h4 a5 h5 a6 h6 a7 h7 hc0 hc1 x0 x1 xs0 xs1 xs2 = k0_pay1 (k0_pay6 x0 xs1) (k0_pay7 x1 xs2) (k0_pay5 x0 x1 xs0) := by
  unfold out0_C_2
  rw [View.read_writes_eq_canon _ _ _ (cover0_C_2 c i a2 h2 a3 h3 a4 h4 a5 h5 a6 h6 a7 h7 hc0 hc1 x0 x1 xs0 xs1 xs2)]
  unfold kernelRun0_C
  dsimp only
  sl_unfold_words
  rw [View.canon_unit_zero hz]
  rw [View.readCov_unit_zero (S := S1x2048) _ hz, View.readCov_unit_zero (S := S1x2048) _ hz, View.readCov_unit_zero (S := S1x2048) _ hz]
  simp only [View.readAt_eq_ld, h2.read_unread, h3.read_unread, h5.read_unread, h6.read_unread, h7.read_unread, View.ld_unit_zero (S := S512x2048) hz, View.ld_unit_zero (S := S1x2048) hz]

end Cert.KernelIdeal.Acc

end
-- ==== Proof.LibBlockSum.lean ====
import Mathlib.Algebra.BigOperators.Fin
import Mathlib.Algebra.BigOperators.Intervals

/-!
# Summing a long sequence block by block

A sum over `T * B` consecutive indices can be taken as `T` partial sums of `B`
consecutive terms each, added up one after the other.  In an additive commutative
monoid the result is the same as the single sum over all `T * B` indices:

* `Cert.BlockSum.sum_blocks`: the general statement, for any number `T` of blocks of any
  length `B`;
* `Cert.BlockSum.sum_20x5000`: twenty blocks of five thousand terms, started from zero,
  with the block count written `19 + 1` and the position written `5000 * s + r`, equal
  to the sum over all one hundred thousand indices.

Only commutativity and associativity of the addition are used.
-/

namespace Cert.BlockSum

/-- `T` partial sums of `B` consecutive terms add up to the sum over all `T * B` terms. -/
theorem sum_blocks {β : Type*} [AddCommMonoid β] (T B : ℕ) (f : ℕ → β) :
    ∑ s ∈ Finset.range T, ∑ r : Fin B, f (s * B + r.val) = ∑ n : Fin (T * B), f n.val := by
  rw [Fin.sum_univ_eq_sum_range (fun n => f n) (T * B)]
  induction T with
  | zero => simp
  | succ T ih =>
    -- the last block is the tail of the range of length `T * B + B`
    rw [Finset.sum_range_succ, ih, Nat.succ_mul, Finset.sum_range_add,
      Fin.sum_univ_eq_sum_range (fun r => f (T * B + r)) B]

/-- Twenty blocks of five thousand terms, accumulated from zero, give the sum of all
one hundred thousand terms. -/
theorem sum_20x5000 {β : Type*} [AddCommMonoid β] (g : Fin 100000 → β) (f : ℕ → β)
    (hf : ∀ n : Fin 100000, f n.val = g n) :
    (0 : β) + ∑ s ∈ Finset.range (19 + 1), ∑ r : Fin 5000, f (5000 * s + r.val)
      = ∑ n : Fin 100000, g n := by
  rw [zero_add]
  calc ∑ s ∈ Finset.range (19 + 1), ∑ r : Fin 5000, f (5000 * s + r.val)
      = ∑ s ∈ Finset.range 20, ∑ r : Fin 5000, f (s * 5000 + r.val) := by
        refine Finset.sum_congr rfl fun s _ => Finset.sum_congr rfl fun r _ => ?_
        rw [Nat.mul_comm]
    _ = ∑ n : Fin (20 * 5000), f n.val := sum_blocks 20 5000 f
    _ = ∑ n : Fin 100000, g n := Finset.sum_congr rfl fun n _ => hf n

end Cert.BlockSum
-- ==== Proof.ColCos.lean ====
/-
  The columnwise cosine similarity of two [16384, 4096] arrays over the extended reals, and the one law the kernel's
  way of summing needs.

  For a column q the three column sums are  dot q = Σ_n o[n,q]·t[n,q],  sqo q = Σ_n o[n,q]²,  sqt q = Σ_n t[n,q]²  over
  the 16384 rows, and the similarity is  dot q / (max(sqrt(sqo q), eps) · max(sqrt(sqt q), eps)).  The kernel takes each
  column sum as 32 partial sums of 512 consecutive rows, added one after the other to a running sum that starts at
  zero. Addition of extended reals is commutative and associative, so the running sum after all 32 row blocks is the
  column sum (`partialSum_all`, by the block-sum law); no entry needs to be finite for this.

  The running sums are indexed by natural numbers (row block s, row s·512 + r, column j·2048 + l), read modulo the
  extents, so that the induction over the grid never carries a bound; inside the extents the reading is the entry.
-/
import proofs.«157805_j7035156431183_2_alg».proof.Proof.LibBlockSum
import Idealize.ShloMosaic.PureOps.Ideal.Laws
import Idealize.ShloMosaic.Lib.ValueIdx

noncomputable section

namespace Cert.ColCos

open Idealize.ShloMosaic Idealize.ShloMosaic.ValueIdx

/-- An input array: 16384 rows, 4096 columns, extended reals. -/
abbrev Arr : Type := FVec Ideal ⟨2, ![16384, 4096]⟩ .f32

/-- The index of row `n`, column `q`, each read modulo its extent. -/
abbrev cell (n q : ℕ) : (⟨2, ![16384, 4096]⟩ : Shape).Idx :=
  ix2 (⟨n % 16384, Nat.mod_lt _ (by norm_num)⟩ : Fin 16384) (⟨q % 4096, Nat.mod_lt _ (by norm_num)⟩ : Fin 4096)

/-- Inside the extents it is the entry's own index. -/
theorem cell_eq (n : Fin 16384) (q : Fin 4096) : cell n.val q.val = ix2 n q := by
  funext d
  match d with
  | ⟨0, _⟩ => exact Fin.ext (Nat.mod_eq_of_lt n.isLt)
  | ⟨1, _⟩ => exact Fin.ext (Nat.mod_eq_of_lt q.isLt)

/-- One term of a column sum: the product of the two arrays' entries at row `n` of column `q`. -/
def term (a b : Arr) (q n : ℕ) : EReal := a (cell n q) * b (cell n q)

/-- The running sum of column `q` after `k` row blocks of 512 rows. -/
def partialSum (a b : Arr) (q k : ℕ) : EReal :=
  ∑ s ∈ Finset.range k, ∑ r : Fin 512, term a b q (s * 512 + r.val)

/-- The column sum over all 16384 rows. -/
def colSum (a b : Arr) (q : Fin 4096) : EReal := ∑ n : Fin 16384, a (ix2 n q) * b (ix2 n q)

theorem partialSum_zero (a b : Arr) (q : ℕ) : partialSum a b q 0 = 0 := Finset.sum_range_zero _

/-- One more row block: its 512 terms are added to the running sum. -/
theorem partialSum_succ (a b : Arr) (q k : ℕ) :
    partialSum a b q (k + 1) = partialSum a b q k + ∑ r : Fin 512, term a b q (k * 512 + r.val) :=
  Finset.sum_range_succ _ _

/-- After all 32 row blocks the running sum is the column sum: 32 blocks of 512 consecutive rows are the 16384 rows. -/
theorem partialSum_all (a b : Arr) (q : Fin 4096) : partialSum a b q.val 32 = colSum a b q := by
  unfold partialSum
  rw [Cert.BlockSum.sum_blocks 32 512 (term a b q.val)]
  show ∑ n : Fin 16384, term a b q.val n.val = _
  refine Finset.sum_congr rfl fun n _ => ?_
  unfold term
  rw [cell_eq]

/-- The smallest norm the quotient divides by: the f32 nearest to 1e-8, as an extended real. -/
abbrev eps : EReal := Ideal.ofBits .f32 0x322BCC77#32

/-- The similarity from the three sums. -/
def cosOf (d no nt : EReal) : EReal := Ideal.div d (max (Ideal.sqrt no) eps * max (Ideal.sqrt nt) eps)

/-- The similarity of column `q` of `o` and `t`. -/
def cosCol (o t : Arr) (q : Fin 4096) : EReal := cosOf (colSum o t q) (colSum o o q) (colSum t t q)

/-- The loss from the 4096 similarities: one minus their mean — the sum from a zero constant, divided by the constant
    4096, subtracted from the constant 1 (the three f32 words as both programs spell them). The two shape facts are
    carried as arguments: any two proofs of them give the same value. -/
def lossOf (v : FVec Ideal ⟨1, ![4096]⟩ .f32) (h : (⟨1, ![4096]⟩ : Shape).ReducesTo [0] ⟨0, ![]⟩)
    (h0 : 0 < (⟨0, ![]⟩ : Shape).numel) : FVec Ideal ⟨0, ![]⟩ .f32 :=
  subf (constant (F := Ideal) ⟨0, ![]⟩ .f32 0x3F800000#32)
    (Host.divf (Host.reduceAdd (F := Ideal) v (constant (F := Ideal) ⟨0, ![]⟩ .f32 0x00000000#32) h h0)
      (constant (F := Ideal) ⟨0, ![]⟩ .f32 0x45800000#32))

/-- The similarities of all 4096 columns, as a vector. -/
def cosVec (o t : Arr) : FVec Ideal ⟨1, ![4096]⟩ .f32 := fun i => cosCol o t (i 0)

end Cert.ColCos

end
-- ==== Proof.LibColumnSum.lean ====
/-
  A sum down the rows of a matrix, read at one column.

  An [a, b] array of extended reals reduced by addition along axis 0 (its rows), from a zero initial value, holds at
  column l the finite sum over the a rows k of the entry (k, l). Stated with the operation's own proof arguments as
  variables, so that a printed reduction meets it in term mode whatever proofs it carries. Depends on no program.
-/
import Idealize.ShloMosaic.Lib.ValueIdx
import Idealize.ShloMosaic.PureOps.Ideal.Laws

noncomputable section

namespace Cert.Lib

open Idealize.ShloMosaic Idealize.ShloMosaic.ValueIdx

/-- The sum of column `l` of an [a, b] array over its `a` rows, from a zero initial value. -/
theorem column_sum {a b : ℕ} (v : FVec Ideal ⟨2, ![a, b]⟩ .f32) (h : (⟨2, ![a, b]⟩ : Shape).Reduces [0] ⟨1, ![b]⟩)
    (hφ : FKind.Formats .f32) (hacc : (0x00000000#32 : BitVec (FTy.f32).bits) = FKind.add.neutral .f32 hφ) (l : Fin b) :
    multiReduction .add [0] ⟨1, ![b]⟩ v 0x00000000#32 h hφ hacc (ix1 l) = ∑ k : Fin a, v (ix2 k l) :=
  (Ideal.multiReduction_add_single v 0x00000000#32 h hφ hacc (ix1 l)).trans
    (Finset.sum_congr rfl fun k _ => congrArg v (funext fun c => Fin.ext (by
      match c with
      | ⟨0, _⟩ => rfl
      | ⟨1, _⟩ => rfl)))

end Cert.Lib

end
-- ==== Proof.Sums.lean ====
/-
  The kernel's update terms read entry by entry over the extended reals, and what they do to a running column sum.

  The update of a running sum s by a point's blocks x0, x1 is, at lane l,  s[0,l] + Σ_r x0[r,l]·x1[r,l]  over the
  block's 512 rows (the products are summed down the rows, the [2048] result is laid out as the row [1, 2048] and added
  to s). So if x0 and x1 are row block k of column block j of two arrays a and b, and s holds the running sums of a·b
  over the first k row blocks, the update holds them over the first k + 1 (`IsSum.step`). The reset stores the zero
  block, which holds the running sums over no row block. The quotient term of three finished sums is the similarity of
  their entries, lane by lane.
-/
import proofs.«157805_j7035156431183_2_alg».proof.Proof.Gen.KernelIdeal.Skeleton
import proofs.«157805_j7035156431183_2_alg».proof.Proof.ColCos
import proofs.«157805_j7035156431183_2_alg».proof.Proof.LibColumnSum
import Idealize.ShloMosaic.Lib.Pipeline.Value
import Idealize.ShloMosaic.Lib.ValueLayout

noncomputable section

open Idealize.ShloMosaic Idealize.ShloMosaic.ValueIdx

namespace Cert.KernelIdeal.Acc

open Cert.KernelIdeal Cert.KernelIdeal.Gen Cert.ColCos

/-! ## The terms, at one entry -/

/-- The zero block the reset stores, at any entry. -/
theorem zero_dot_apply (y : S1x2048.Idx) : k0_pay2 (F := Ideal) y = 0 := by
  unfold k0_pay2
  refine (congrFun (shapeCast_self _ _) y).trans ?_
  exact Ideal.ofBits_zero_f32
theorem zero_sqo_apply (y : S1x2048.Idx) : k0_pay3 (F := Ideal) y = 0 := by
  unfold k0_pay3
  refine (congrFun (shapeCast_self _ _) y).trans ?_
  exact Ideal.ofBits_zero_f32
theorem zero_sqt_apply (y : S1x2048.Idx) : k0_pay4 (F := Ideal) y = 0 := by
  unfold k0_pay4
  refine (congrFun (shapeCast_self _ _) y).trans ?_
  exact Ideal.ofBits_zero_f32

/-- The dot update at lane `l`: what the sum held plus the 512 products down the lane. -/
theorem dot_apply (x0 x1 : FVec Ideal S512x2048 .f32) (xs : FVec Ideal S1x2048 .f32) (u : Fin 1) (l : Fin 2048) :
    k0_pay5 (F := Ideal) x0 x1 xs (ix2 u l) = xs (ix2 u l) + ∑ r : Fin 512, x0 (ix2 r l) * x1 (ix2 r l) := by
  unfold k0_pay5
  refine (congrFun (shapeCast_self _ _) (ix2 u l)).trans ((addf_apply _ _ _).trans (congrArg (xs (ix2 u l) + ·) ?_))
  refine (shapeCast_a_1a_apply _ _ u l).trans ?_
  exact Cert.Lib.column_sum _ _ _ _ l

/-- The same for the squares of the first input -/
theorem sqo_apply (x0 : FVec Ideal S512x2048 .f32) (xs : FVec Ideal S1x2048 .f32) (u : Fin 1) (l : Fin 2048) :
    k0_pay6 (F := Ideal) x0 xs (ix2 u l) = xs (ix2 u l) + ∑ r : Fin 512, x0 (ix2 r l) * x0 (ix2 r l) := by
  unfold k0_pay6
  refine (congrFun (shapeCast_self _ _) (ix2 u l)).trans ((addf_apply _ _ _).trans (congrArg (xs (ix2 u l) + ·) ?_))
  refine (shapeCast_a_1a_apply _ _ u l).trans ?_
  exact Cert.Lib.column_sum _ _ _ _ l

/-- and of the second. -/
theorem sqt_apply (x1 : FVec Ideal S512x2048 .f32) (xs : FVec Ideal S1x2048 .f32) (u : Fin 1) (l : Fin 2048) :
    k0_pay7 (F := Ideal) x1 xs (ix2 u l) = xs (ix2 u l) + ∑ r : Fin 512, x1 (ix2 r l) * x1 (ix2 r l) := by
  unfold k0_pay7
  refine (congrFun (shapeCast_self _ _) (ix2 u l)).trans ((addf_apply _ _ _).trans (congrArg (xs (ix2 u l) + ·) ?_))
  refine (shapeCast_a_1a_apply _ _ u l).trans ?_
  exact Cert.Lib.column_sum _ _ _ _ l

/-- The quotient term at an entry: the similarity of the three sums' entries (square sums first, as the term takes them). -/
theorem quot_apply (sqo sqt dot : FVec Ideal S1x2048 .f32) (y : S1x2048.Idx) :
    k0_pay1 (F := Ideal) sqo sqt dot y = cosOf (dot y) (sqo y) (sqt y) := rfl

/-! ## Blocks of an array and running sums over row blocks -/

/-- `x` is row block `i` (512 rows) of column block `j` (2048 columns) of the array `a`. -/
def IsBlock (a : Arr) (i j : ℕ) (x : FVec Ideal S512x2048 .f32) : Prop :=
  ∀ (r : Fin 512) (l : Fin 2048), x (ix2 r l) = a (cell (i * 512 + r.val) (j * 2048 + l.val))

/-- `s` holds, lane by lane, the running sums of `a·b` over the first `k` row blocks of column block `j`. -/
def IsSum (a b : Arr) (j k : ℕ) (s : FVec Ideal S1x2048 .f32) : Prop :=
  ∀ (u : Fin 1) (l : Fin 2048), s (ix2 u l) = partialSum a b (j * 2048 + l.val) k

/-- One lane's 512 products of two blocks are the lane's terms of row block `k`. -/
theorem block_terms {a b : Arr} {k j : ℕ} {x0 x1 : FVec Ideal S512x2048 .f32} (h0 : IsBlock a k j x0) (h1 : IsBlock b k j x1)
    (l : Fin 2048) : ∑ r : Fin 512, x0 (ix2 r l) * x1 (ix2 r l) = ∑ r : Fin 512, term a b (j * 2048 + l.val) (k * 512 + r.val) :=
  Finset.sum_congr rfl fun r _ => by rw [h0 r l, h1 r l]; rfl

/-- The zero block holds the running sums over no row block. -/
theorem IsSum.zero_dot (a b : Arr) (j : ℕ) : IsSum a b j 0 (k0_pay2 (F := Ideal)) :=
  fun u l => (zero_dot_apply _).trans (partialSum_zero a b _).symm
theorem IsSum.zero_sqo (a b : Arr) (j : ℕ) : IsSum a b j 0 (k0_pay3 (F := Ideal)) :=
  fun u l => (zero_sqo_apply _).trans (partialSum_zero a b _).symm
theorem IsSum.zero_sqt (a b : Arr) (j : ℕ) : IsSum a b j 0 (k0_pay4 (F := Ideal)) :=
  fun u l => (zero_sqt_apply _).trans (partialSum_zero a b _).symm

/-- THE STEP: updated by row block `k`, running sums over `k` row blocks become running sums over `k + 1`. -/
theorem IsSum.step_dot {a b : Arr} {j k : ℕ} {x0 x1 : FVec Ideal S512x2048 .f32} {xs : FVec Ideal S1x2048 .f32}
    (h0 : IsBlock a k j x0) (h1 : IsBlock b k j x1) (hs : IsSum a b j k xs) : IsSum a b j (k + 1) (k0_pay5 (F := Ideal) x0 x1 xs) :=
  fun u l => by rw [dot_apply, hs u l, block_terms h0 h1 l, partialSum_succ]
theorem IsSum.step_sqo {a : Arr} {j k : ℕ} {x0 : FVec Ideal S512x2048 .f32} {xs : FVec Ideal S1x2048 .f32}
    (h0 : IsBlock a k j x0) (hs : IsSum a a j k xs) : IsSum a a j (k + 1) (k0_pay6 (F := Ideal) x0 xs) :=
  fun u l => by rw [sqo_apply, hs u l, block_terms h0 h0 l, partialSum_succ]
theorem IsSum.step_sqt {b : Arr} {j k : ℕ} {x1 : FVec Ideal S512x2048 .f32} {xs : FVec Ideal S1x2048 .f32}
    (h1 : IsBlock b k j x1) (hs : IsSum b b j k xs) : IsSum b b j (k + 1) (k0_pay7 (F := Ideal) x1 xs) :=
  fun u l => by rw [sqt_apply, hs u l, block_terms h1 h1 l, partialSum_succ]

/-! ## The three running sums together -/

/-- `s0`, `s1`, `s2` hold the running sums of o·t, o·o and t·t over the first `k` row blocks of column block `j`. -/
def AreSums (o t : Arr) (j k : ℕ) (s0 s1 s2 : FVec Ideal S1x2048 .f32) : Prop :=
  IsSum o t j k s0 ∧ IsSum o o j k s1 ∧ IsSum t t j k s2

/-- A first row block: reset to zero, then updated, the sums run over one row block. -/
theorem AreSums.first {o t : Arr} {j k : ℕ} (hk : k = 0) {x0 x1 : FVec Ideal S512x2048 .f32}
    (h0 : IsBlock o k j x0) (h1 : IsBlock t k j x1) :
    AreSums o t j (k + 1) (k0_pay5 (F := Ideal) x0 x1 (k0_pay2 (F := Ideal))) (k0_pay6 (F := Ideal) x0 (k0_pay3 (F := Ideal)))
      (k0_pay7 (F := Ideal) x1 (k0_pay4 (F := Ideal))) := by
  subst hk
  exact ⟨IsSum.step_dot h0 h1 (IsSum.zero_dot o t j), IsSum.step_sqo h0 (IsSum.zero_sqo o o j),
    IsSum.step_sqt h1 (IsSum.zero_sqt t t j)⟩

/-- A later row block `k` of the same column block: the sums over the `k` row blocks before it are updated. -/
theorem AreSums.next {o t : Arr} {j j' k k' : ℕ} (hj : j' = j) (hk : k' + 1 = k)
    {x0 x1 : FVec Ideal S512x2048 .f32} {xs0 xs1 xs2 : FVec Ideal S1x2048 .f32}
    (h0 : IsBlock o k j x0) (h1 : IsBlock t k j x1) (hs : AreSums o t j' (k' + 1) xs0 xs1 xs2) :
    AreSums o t j (k + 1) (k0_pay5 (F := Ideal) x0 x1 xs0) (k0_pay6 (F := Ideal) x0 xs1) (k0_pay7 (F := Ideal) x1 xs2) := by
  subst hj; subst hk
  exact ⟨IsSum.step_dot h0 h1 hs.1, IsSum.step_sqo h0 hs.2.1, IsSum.step_sqt h1 hs.2.2⟩

/-- Of the sums over all 32 row blocks the quotient term holds, at lane `l`, the similarity of column `j·2048 + l`. -/
theorem quot_of_sums {o t : Arr} {j : ℕ} {s0 s1 s2 : FVec Ideal S1x2048 .f32} (hs : AreSums o t j 32 s0 s1 s2)
    (u : Fin 1) (l : Fin 2048) (hq : j * 2048 + l.val < 4096) :
    k0_pay1 (F := Ideal) s1 s2 s0 (ix2 u l) = cosCol o t ⟨j * 2048 + l.val, hq⟩ := by
  have e (a b : Arr) : partialSum a b (j * 2048 + l.val) 32 = colSum a b ⟨j * 2048 + l.val, hq⟩ := partialSum_all a b ⟨_, hq⟩
  rw [quot_apply, hs.1 u l, hs.2.1 u l, hs.2.2 u l, e, e, e]
  rfl

end Cert.KernelIdeal.Acc

end
-- ==== Proof.Invariant.lean ====
/-
  What the running sums and the output block hold after every grid point.

  Point n of the 64 is row block n mod 32 of column block n / 32: the two input blocks the point is handed are those
  blocks of the two argument arrays (the index maps, decided over the grid). By induction on n the three running sums
  hold, after point n, the sums of o·t, o·o and t·t over the first (n mod 32) + 1 row blocks of column block n / 32: a
  first row block resets and adds, a later one adds to what the point before left, which belongs to the same column
  block. At a last row block, n mod 32 = 31, all 32 row blocks are in, and the stored quotient is the similarity of
  each of the column block's 2048 columns.
-/
import proofs.«157805_j7035156431183_2_alg».proof.Proof.Gen.KernelIdeal.Frame
import proofs.«157805_j7035156431183_2_alg».proof.Proof.Pieces
import proofs.«157805_j7035156431183_2_alg».proof.Proof.Sums
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Acc

open Cert.KernelIdeal Cert.KernelIdeal.Gen Cert.ColCos Idealize.ShloMosaic.ValueIdx

variable (m : (ℓ : Loc nD τ sig) → Buf (Elt Ideal) ℓ)

/-- The two argument arrays as the region finds them. -/
abbrev argO (c : Dev nD) : Arr := V m c main_arg0
abbrev argT (c : Dev nD) : Arr := V m c main_arg1

/-- The printed index maps over the grid: both inputs' block at point `t` is (t mod 32, t / 32), the output's (0, t / 32). -/
theorem block_of_point : ∀ t : Fin cfg0.N, win0_0.index t (0 : Fin 2) = t.val % 32 ∧ win0_0.index t (1 : Fin 2) = t.val / 32
    ∧ win0_1.index t (0 : Fin 2) = t.val % 32 ∧ win0_1.index t (1 : Fin 2) = t.val / 32
    ∧ win0_2.index t (0 : Fin 2) = 0 ∧ win0_2.index t (1 : Fin 2) = t.val / 32 :=
  (by decide +kernel : ∀ t : Fin grid0.N, _)

/-- The first input's block at point `t` is row block t mod 32 of column block t / 32 of the first argument. -/
theorem iblk0_isBlock (c : Dev nD) (t : Fin cfg0.N) : IsBlock (argO m c) (t.val % 32) (t.val / 32) (iblk m c 0 t) := by
  intro r l
  obtain ⟨e0, e1, -⟩ := block_of_point t
  have hN : t.val < 64 := lt_of_lt_of_eq t.isLt (show cfg0.N = 64 from N_0)
  unfold iblk
  rw [View.read_apply]
  show V m c main_arg0 _ = V m c main_arg0 _
  congr 1
  funext a
  apply Fin.ext
  match a with
  | ⟨0, _⟩ =>
    show win0_0.index t (0 : Fin 2) * 512 + 1 * r.val = (t.val % 32 * 512 + r.val) % 16384
    rw [e0]; have := r.isLt; omega
  | ⟨1, _⟩ =>
    show win0_0.index t (1 : Fin 2) * 2048 + 1 * l.val = (t.val / 32 * 2048 + l.val) % 4096
    rw [e1]; have := l.isLt; omega

/-- The second input's likewise, of the second argument. -/
theorem iblk1_isBlock (c : Dev nD) (t : Fin cfg0.N) : IsBlock (argT m c) (t.val % 32) (t.val / 32) (iblk m c 1 t) := by
  intro r l
  obtain ⟨-, -, e0, e1, -⟩ := block_of_point t
  have hN : t.val < 64 := lt_of_lt_of_eq t.isLt (show cfg0.N = 64 from N_0)
  unfold iblk
  rw [View.read_apply]
  show V m c main_arg1 _ = V m c main_arg1 _
  congr 1
  funext a
  apply Fin.ext
  match a with
  | ⟨0, _⟩ =>
    show win0_1.index t (0 : Fin 2) * 512 + 1 * r.val = (t.val % 32 * 512 + r.val) % 16384
    rw [e0]; have := r.isLt; omega
  | ⟨1, _⟩ =>
    show win0_1.index t (1 : Fin 2) * 2048 + 1 * l.val = (t.val / 32 * 2048 + l.val) % 4096
    rw [e1]; have := l.isLt; omega

/-- THE INVARIANT: after point `n` the three running sums hold the sums over the first (n mod 32) + 1 row blocks of
    column block n / 32 — by induction on the point. -/
theorem sums_after (c : Dev nD) : ∀ (n : ℕ) (h : n < cfg0.N),
    AreSums (argO m c) (argT m c) (n / 32) (n % 32 + 1) (outsAt0 m c n h).2.1 (outsAt0 m c n h).2.2.1 (outsAt0 m c n h).2.2.2
  | 0, h => by
    rw [outsAt0_A m c ⟨0, h⟩ rfl (by show ¬(0 : ℕ) % 32 = 31; decide)]
    dsimp only
    rw [first_dot, first_sqo, first_sqt]
    exact AreSums.first rfl (iblk0_isBlock m c ⟨0, h⟩) (iblk1_isBlock m c ⟨0, h⟩)
  | n + 1, h => by
    have hN : n + 1 < 64 := lt_of_lt_of_eq h (show cfg0.N = 64 from N_0)
    have ih := sums_after c n (Nat.lt_of_succ_lt h)
    by_cases h0 : (n + 1) % 32 = 0
    · have h1 : ¬(n + 1) % 32 = 31 := by omega
      rw [outsAt0_A m c ⟨n + 1, h⟩ h0 h1]
      dsimp only
      rw [first_dot, first_sqo, first_sqt]
      exact AreSums.first h0 (iblk0_isBlock m c ⟨n + 1, h⟩) (iblk1_isBlock m c ⟨n + 1, h⟩)
    · by_cases h1 : (n + 1) % 32 = 31
      · rw [outsAt0_C m c ⟨n + 1, h⟩ h0 h1]
        dsimp only
        rw [last_dot, last_sqo, last_sqt]
        exact AreSums.next (by omega) (by omega) (iblk0_isBlock m c ⟨n + 1, h⟩) (iblk1_isBlock m c ⟨n + 1, h⟩) ih
      · rw [outsAt0_B m c ⟨n + 1, h⟩ h0 h1]
        dsimp only
        rw [mid_dot, mid_sqo, mid_sqt]
        exact AreSums.next (by omega) (by omega) (iblk0_isBlock m c ⟨n + 1, h⟩) (iblk1_isBlock m c ⟨n + 1, h⟩) ih

/-- At a last row block the output block holds, at lane `l`, the similarity of column (t / 32)·2048 + l. -/
theorem out_last (c : Dev nD) (t : Fin cfg0.N) (h1 : t.val % 32 = 31) (u : Fin 1) (l : Fin 2048)
    (hq : t.val / 32 * 2048 + l.val < 4096) :
    (outsAt0 m c t.val t.isLt).1 (ix2 u l) = cosCol (argO m c) (argT m c) ⟨t.val / 32 * 2048 + l.val, hq⟩ := by
  have hN : t.val < 64 := lt_of_lt_of_eq t.isLt (show cfg0.N = 64 from N_0)
  have h0 : ¬t.val % 32 = 0 := by omega
  have hs := sums_after m c t.val t.isLt
  rw [outsAt0_C m c t h0 h1] at hs ⊢
  dsimp only at hs ⊢
  rw [last_dot, last_sqo, last_sqt] at hs
  rw [last_quot]
  rw [h1] at hs
  exact quot_of_sums hs u l hq

end Cert.KernelIdeal.Acc

end
-- ==== Proof.Result.lean ====
/-
  The kernel's result: the [1, 4096] array the region leaves, and the loss the host computes from it.

  The output block (0, j) is written back only at the last row block of column block j, and then holds the
  similarities of columns j·2048 … j·2048 + 2047 (the invariant). The two blocks tile the [1, 4096] array: column q
  lies in the block written at point 32·(q / 2048) + 31. So the array ends holding, at (0, q), the similarity of
  column q. The host then drops the unit axis, sums from zero, divides by 4096 and subtracts from 1: the loss of the
  vector of similarities.
-/
import proofs.«157805_j7035156431183_2_alg».proof.Proof.Gen.KernelIdeal.Frame
import proofs.«157805_j7035156431183_2_alg».proof.Proof.Invariant
import Idealize.ShloMosaic.Lib.ValueLayout
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Acc

open Cert.KernelIdeal Cert.KernelIdeal.Gen Cert.ColCos Idealize.ShloMosaic.ValueIdx

variable (m : (ℓ : Loc nD τ sig) → Buf (Elt Ideal) ℓ) (ρ : Dev nD → PrngReg)

-- the similarity of a column is never opened here: it is compared as a whole
attribute [local irreducible] cosCol

/-- What the region's result array ends holding: at (0, q) the similarity of column q. -/
abbrev cosRow (c : Dev nD) : Buf (Elt Ideal) ((c : Thread nD τ).loc main_v0) :=
  fun y => cosCol (argO m c) (argT m c) (y 1)

/-- What a write-back writes is the written block of that array. -/
theorem flushed_eq (c : Dev nD) (t : Fin cfg0.N) (hf : (cfg0.win 2).flush t = true) :
    (dats m 0 c).flushed 2 t = ((cfg0.win 2).blk t).view.read (Elt Ideal) (cosRow m c) := by
  have h1 : t.val % 32 = 31 := (flush0_2 t).mp hf
  have hN : t.val < 64 := lt_of_lt_of_eq t.isLt (show cfg0.N = 64 from N_0)
  obtain ⟨-, -, -, -, e0, e1⟩ := block_of_point t
  show (cfg0.win 2).cut (grid0.coords t) ((dats m 0 c).after 2 t) = _
  rw [after0_2]
  funext y
  have hy0 : (y 0).val < 1 := (y 0).isLt
  have hy1 : (y 1).val < 2048 := (y 1).isLt
  have hq : t.val / 32 * 2048 + (y 1).val < 4096 := by omega
  show (outsAt0 m c t.val t.isLt).1 y = _
  have hy : (outsAt0 m c t.val t.isLt).1 y = (outsAt0 m c t.val t.isLt).1 (ix2 (y 0) (y 1)) :=
    congrArg (outsAt0 m c t.val t.isLt).1 (eq_ix2 (n0 := 1) (n1 := 2048) y)
  rw [hy, out_last m c t h1 (y 0) (y 1) hq]
  have hidx : (⟨t.val / 32 * 2048 + (y 1).val, hq⟩ : Fin 4096) = (((cfg0.win 2).blk t).view.emb y) 1 := by
    apply Fin.ext
    show t.val / 32 * 2048 + (y 1).val = win0_2.index t (1 : Fin 2) * 2048 + 1 * (y 1).val
    rw [e1]; omega
  rw [hidx]
  rfl

/-- An index of the result array is in point `t`'s block iff each coordinate is in the block's range on its axis. -/
theorem mem_blk (t : Fin cfg0.N) (i : S1x4096.Idx) :
    i ∈ ((cfg0.win 2).blk t).view.set ↔ ∀ a : Fin 2, win0_2.index t a * S1x2048.size a ≤ (i a).val
      ∧ (i a).val < win0_2.index t a * S1x2048.size a + S1x2048.size a := by
  show i ∈ ((View.whole main_v0).slice (win0_2.rect t)).set ↔ _
  rw [View.set_slice_whole, Rect.mem_set_unit]
  exact Iff.rfl

/-- Every entry of the result array is written back: column q at the last row block of column block q / 2048. -/
theorem covered (i : S1x4096.Idx) :
    ∃ t : Fin cfg0.N, (cfg0.win 2).flush t = true ∧ i ∈ ((cfg0.win 2).blk t).view.set := by
  have hi0 : (i 0).val < 1 := (i 0).isLt
  have hi1 : (i 1).val < 4096 := (i 1).isLt
  have hN : cfg0.N = 64 := N_0
  have hlt : 32 * ((i 1).val / 2048) + 31 < cfg0.N := by rw [hN]; omega
  refine ⟨⟨32 * ((i 1).val / 2048) + 31, hlt⟩, (flush0_2 _).mpr (by show (32 * ((i 1).val / 2048) + 31) % 32 = 31; omega), ?_⟩
  rw [mem_blk]
  obtain ⟨-, -, -, -, e0, e1⟩ := block_of_point ⟨32 * ((i 1).val / 2048) + 31, hlt⟩
  have e1' : win0_2.index ⟨32 * ((i 1).val / 2048) + 31, hlt⟩ (1 : Fin 2) = (32 * ((i 1).val / 2048) + 31) / 32 := e1
  intro a
  match a with
  | ⟨0, _⟩ =>
    show win0_2.index ⟨32 * ((i 1).val / 2048) + 31, hlt⟩ (0 : Fin 2) * 1 ≤ (i 0).val
      ∧ (i 0).val < win0_2.index ⟨32 * ((i 1).val / 2048) + 31, hlt⟩ (0 : Fin 2) * 1 + 1
    rw [e0]; omega
  | ⟨1, _⟩ =>
    show win0_2.index ⟨32 * ((i 1).val / 2048) + 31, hlt⟩ (1 : Fin 2) * 2048 ≤ (i 1).val
      ∧ (i 1).val < win0_2.index ⟨32 * ((i 1).val / 2048) + 31, hlt⟩ (1 : Fin 2) * 2048 + 2048
    rw [e1']; omega

/-- So the region's result array ends holding the similarities. -/
theorem final (c : Dev nD) : (dats m 0 c).arrAt 2 cfg0.N = cosRow m c :=
  (dats m 0 c).arrAt_eq_of_cover 2 (cosRow m c) (flushed_eq m c) covered

/-- With its unit axis dropped it is the vector of similarities. -/
theorem cosRow_cast (c : Dev nD) :
    shapeCast S4096 (cosRow m c) shapeCasts_S1x4096_S4096 = cosVec (argO m c) (argT m c) := by
  funext i
  obtain ⟨q, rfl⟩ : ∃ q : Fin 4096, i = ix1 q := ⟨i 0, eq_ix1 i⟩
  exact shapeCast_1a_a_apply _ _ q

/-- The host's lines after the region compute the loss of that vector. -/
theorem tail_eq (c : Dev nD) :
    Pipeline.afterTail₀ cfgs (dats m) 0 (V0 m) [hostOps1] c main_v4
      = lossOf (cosVec (argO m c) (argT m c)) reducesTo_S4096_S_d0 h_S_ := by
  unfold Pipeline.afterTail₀
  show StableHlo.after hostOps1 _ (Proc.devRef .tc main_v4) = _
  after_results
  have e : Pipeline.withArrays (cfgs 0).spec c (V0 m c) (fun w => (dats m 0 c).arrAt w (cfgs 0).N) (Proc.devRef .tc main_v0)
      = cosRow m c :=
    (Pipeline.withArrays_arr spec0 launch0.win.arr_inj c (V0 m c) (fun w => (dats m 0 c).arrAt w (cfgs 0).N) 2).trans (final m c)
  show lossOf (shapeCast S4096 (Pipeline.withArrays (cfgs 0).spec c (V0 m c) (fun w => (dats m 0 c).arrAt w (cfgs 0).N)
    (Proc.devRef .tc main_v0)) shapeCasts_S1x4096_S4096) reducesTo_S4096_S_d0 h_S_ = _
  rw [e, cosRow_cast]

/-- THE RUN, READ: every weakly fair execution of the kernel's program ends with the result at the loss of the vector of
    similarities of the two arguments, and the arguments unchanged. -/
theorem run : θ_run defs (onTc (τ := τ) (main (F := Ideal))) ⟨m, fun _ => 0, ρ⟩ fun r => ∀ c : Dev nD,
      r.2.mem ((c : Thread nD τ).loc main_v4) = lossOf (cosVec (argO m c) (argT m c)) reducesTo_S4096_S_d0 h_S_
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v4 (Pipeline.mem_restRefs_of main_v4 rfl (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Acc

end
-- ==== Proof.RefRead.lean ====
/-
  The reference, column by column: jnp's quotient of the three column sums is the similarity.

  The reference sums o·t, o·o and t·t down all 16384 rows at once (each sum started from a zero constant), takes the
  square roots of the two square sums, clamps each from below by eps, multiplies, and divides the dot sum by the
  product. Read at column q through the generated one-operation-at-a-time lemmas, the result is
  dot q / (max(sqrt(sqo q), eps) · max(sqrt(sqt q), eps)) with the three column sums as plain finite sums: the host's
  division and square root are, on the extended reals, the kernel's.
-/
import proofs.«157805_j7035156431183_2_alg».proof.Proof.Gen.ReferenceIdeal.Run
import proofs.«157805_j7035156431183_2_alg».proof.Proof.Gen.ReferenceIdeal.Read
import proofs.«157805_j7035156431183_2_alg».proof.Proof.ColCos

noncomputable section

namespace Cert.ReferenceIdeal.RefValue

open Cert.ReferenceIdeal Cert.ReferenceIdeal.Gen Cert.ReferenceIdeal.Read Cert.ColCos
open Idealize.ShloMosaic Idealize.ShloMosaic.ValueIdx

/-- The entry the column sums read at row `k` of column `q`. -/
theorem row_of_col (q : Fin 4096) (k : Fin 16384) : idx_main_v1 (ix1 q) k = ix2 k q :=
  funext fun a => Fin.ext (by match a with | ⟨0, _⟩ => rfl | ⟨1, _⟩ => rfl)

theorem row_of_col_sqo (q : Fin 4096) (k : Fin 16384) : idx_main_v3 (ix1 q) k = ix2 k q :=
  funext fun a => Fin.ext (by match a with | ⟨0, _⟩ => rfl | ⟨1, _⟩ => rfl)
theorem row_of_col_sqt (q : Fin 4096) (k : Fin 16384) : idx_main_v6 (ix1 q) k = ix2 k q :=
  funext fun a => Fin.ext (by match a with | ⟨0, _⟩ => rfl | ⟨1, _⟩ => rfl)

/-- The reference's quotient at column `q` is the similarity of that column. -/
theorem cos_apply (x0 x1 : Arr) (q : Fin 4096) : val_main_v13 (F := Ideal) x0 x1 (ix1 q) = cosCol x0 x1 q := by
  rw [val_main_v13_apply, val_main_v1_apply, val_main_v12_apply, val_main_v9_apply, val_main_v11_apply,
    val_main_v4_apply, val_main_v7_apply, val_main_v3_apply, val_main_v6_apply, val_main_v8_apply, val_main_v10_apply]
  simp only [val_main_v0_apply, val_main_v2_apply, val_main_v5_apply, val_main_cst_apply, val_main_cst_0_apply,
    val_main_cst_1_apply, val_main_cst_2_apply, val_main_cst_3_apply, row_of_col, row_of_col_sqo, row_of_col_sqt,
    Ideal.hostDivf_def, Ideal.mulf_def, Ideal.maximumf_def, Ideal.hostUnary_sqrt_def, Ideal.ofBits_def,
    Ideal.ofBits_zero_f32, zero_add]
  rfl

/-- So the reference's quotient, as an array over the 4096 columns, is the vector of similarities. -/
theorem cos_eq (x0 x1 : Arr) : val_main_v13 (F := Ideal) x0 x1 = cosVec x0 x1 := by
  funext i
  obtain ⟨q, rfl⟩ : ∃ q : Fin 4096, i = ix1 q := ⟨i 0, eq_ix1 i⟩
  exact cos_apply x0 x1 q

/-- And the reference's result is the loss of that vector: its last three operations are the mean and the subtraction. -/
theorem loss_eq (x0 x1 : Arr) : val_main_v16 (F := Ideal) x0 x1 = lossOf (cosVec x0 x1) reducesTo_S4096_S_d0 h_S_ := by
  rw [← cos_eq]
  rfl

end Cert.ReferenceIdeal.RefValue

end
-- ==== Proof.lean ====
/-
  The columnwise cosine-similarity loss: a Pallas kernel with three running column sums against jnp's one-pass form.

  Both programs take two f32[16384, 4096] arrays o and t and return one number,
      1 − (1/4096) · Σ_q  dot q / (max(sqrt(sqo q), eps) · max(sqrt(sqt q), eps)),
  with dot q = Σ_n o[n,q]·t[n,q], sqo q = Σ_n o[n,q]², sqt q = Σ_n t[n,q]² over the 16384 rows and eps the f32 nearest
  to 1e-8 (the same word on both sides; the same words for 0, 4096 and 1 too).

  The reference takes each column sum in one reduction. The kernel walks a grid of 2 column blocks (2048 columns) by
  32 row blocks (512 rows), row blocks innermost, keeping three [1, 2048] running sums between points: reset at a
  column block's first row block, updated by each row block's 512-row column sums, and turned into the quotient, which
  is written out, at its last row block. The host then takes the mean of the [1, 4096] result and subtracts it from 1,
  as the reference does.

  Over the extended reals the two agree because a column sum taken as 32 partial sums of 512 consecutive rows, added
  one after the other from zero, is the column sum: only commutativity and associativity of addition are used, so the
  inputs' finiteness is never opened. Division and square root are the same functions on the host and in the kernel.

  Modules: ColCos (the similarity and the block-sum law; LibBlockSum), Pieces (what one grid point leaves, for any
  float instance), Sums (the update terms entry by entry; LibColumnSum), Invariant (the running sums after every
  point, by induction), Result (the write-back, the cover, the host's lines after the region, the run), RefRead (the
  reference column by column, over the generated run and its one-operation-at-a-time lemmas). The three frames are the
  generated ones (the reference's is its generated run with the result dropped); the idealization rewrote nothing.
-/
import proofs.«157805_j7035156431183_2_alg».proof.Defs
import proofs.«157805_j7035156431183_2_alg».proof.Proof.Gen.Kernel
import proofs.«157805_j7035156431183_2_alg».proof.Proof.Gen.Kernel.Skeleton
import proofs.«157805_j7035156431183_2_alg».proof.Proof.Gen.Kernel.Launch
import proofs.«157805_j7035156431183_2_alg».proof.Proof.Gen.Kernel.Points
import proofs.«157805_j7035156431183_2_alg».proof.Proof.Gen.Kernel.Frame
import proofs.«157805_j7035156431183_2_alg».proof.Proof.Gen.KernelIdeal
import proofs.«157805_j7035156431183_2_alg».proof.Proof.Gen.KernelIdeal.Skeleton
import proofs.«157805_j7035156431183_2_alg».proof.Proof.Gen.KernelIdeal.Launch
import proofs.«157805_j7035156431183_2_alg».proof.Proof.Gen.KernelIdeal.Points
import proofs.«157805_j7035156431183_2_alg».proof.Proof.Gen.KernelIdeal.Frame
import proofs.«157805_j7035156431183_2_alg».proof.Proof.Gen.ReferenceIdeal
import proofs.«157805_j7035156431183_2_alg».proof.Proof.Gen.ReferenceIdeal.Run
import proofs.«157805_j7035156431183_2_alg».proof.Proof.Gen.ReferenceIdeal.Read
import proofs.«157805_j7035156431183_2_alg».proof.Proof.Gen.Pre_finite_inputs
import proofs.«157805_j7035156431183_2_alg».proof.Proof.Result
import proofs.«157805_j7035156431183_2_alg».proof.Proof.RefRead
import Idealize.ShloMosaic.Adequacy
import Idealize.ShloMosaic.Init

noncomputable section

namespace Cert.Proof

open Idealize.ShloMosaic Idealize.SL.Sem

/-- The word-level kernel runs and keeps its arguments: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its generated run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Over the extended reals, from memories agreeing on the two arguments, the kernel's program and the reference
    both end at the loss of the vector of columnwise similarities of the arguments. -/
theorem algebraic : Cert.algebraic_KernelIdeal_ReferenceIdeal := by
  intro m ρ m' ρ' _ hagree
  refine ⟨fun c => Cert.ColCos.lossOf (Cert.ColCos.cosVec (Cert.KernelIdeal.Acc.argO m c) (Cert.KernelIdeal.Acc.argT m c))
    Cert.KernelIdeal.Facts₀.reducesTo_S4096_S_d0 Cert.KernelIdeal.Facts₀.h_S_, Cert.KernelIdeal.Acc.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ReferenceIdeal.RefValue.loss_eq, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
